-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192 .f32) (main_arg2 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x8192 : Shape := ⟨2, ![8192, 8192]⟩
abbrev S8192 : Shape := ⟨1, ![8192]⟩
abbrev S8192x1 : Shape := ⟨2, ![8192, 1]⟩
abbrev S256x8192 : Shape := ⟨2, ![256, 8192]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192x8192, .f32⟩
  | .hbm, ⟨3, _⟩ => ⟨S8192, .f32⟩
  | .hbm, ⟨4, _⟩ => ⟨S8192x1, .f32⟩
  | .hbm, ⟨5, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S256x8192, .f32⟩
  | .local _ .vmem, ⟨5, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x8192_S256x8192_0_0 : ∀ a, (![0, 0] : Fin 2 → Nat) a + S256x8192.size a ≤ S256x8192.size a
  h_S256x8192 : 0 < S256x8192.numel
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192x8192, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowSign.lean ====
/-
  The matrix both programs compute. From a vector `v` of 8192 entries and an 8192 × 8192 matrix `H`, the result
  is `diag (sign v) · H`: every row of `H` scaled by the sign of that row's entry of `v`,

      (r, q) ↦ sign (v r) · H (r, q).

  One entry of the result depends on one entry of `v` and one entry of `H`, through the two scalar operations
  `sign` and `·` in that order of the factors; no law of arithmetic is needed to compare two programs that both
  compute it this way, so the function is stated for any float instance.
-/
import Idealize.ShloMosaic.Lib.ValueIdx

noncomputable section

namespace Cert.RowSign

open Idealize.ShloMosaic Idealize.ShloMosaic.ValueIdx

variable {F : FTy → Type} [FloatOps F]

/-- `diag (sign v) · H`, entry by entry: at row `r` and column `q` the sign of `v r` times `H (r, q)`. -/
def rowSigned (v : FVec F ⟨1, ![8192]⟩ .f32) (H : FVec F ⟨2, ![8192, 8192]⟩ .f32) : FVec F ⟨2, ![8192, 8192]⟩ .f32 :=
  fun i => FloatOps.mulf (FloatOps.hostUnary .sign (v (ix1 (i 0)))) (H i)

/-- The entry at `(r, q)`. -/
theorem rowSigned_apply (v : FVec F ⟨1, ![8192]⟩ .f32) (H : FVec F ⟨2, ![8192, 8192]⟩ .f32) (r q : Fin 8192) :
    rowSigned v H (ix2 r q) = FloatOps.mulf (FloatOps.hostUnary .sign (v (ix1 r))) (H (ix2 r q)) := rfl

end Cert.RowSign

end
-- ==== Proof.RefRowSign.lean ====
/-
  The reference's result is `diag (sign v) · H`. The reference takes the signs of `v`, lays them out as a column
  (entry `(r, 0)` is the sign of `v r`), repeats the column along every row (entry `(r, q)` is the column's
  `(r, 0)`), and multiplies by `H` entry by entry. Reading the four stages at an index `(r, q)`, outermost first,
  gives `sign (v r) · H (r, q)`.
-/
import proofs.«138551_j79551384256559_2_alg».proof.Proof.Gen.ReferenceIdeal.Read
import proofs.«138551_j79551384256559_2_alg».proof.Proof.RowSign

noncomputable section

namespace Cert.ReferenceIdeal.RowValue

open Cert.ReferenceIdeal Cert.ReferenceIdeal.Read Idealize.ShloMosaic Idealize.ShloMosaic.ValueIdx Cert.RowSign

variable {F : FTy → Type} [FloatOps F]

/-- The two broadcasts read entry `(r, q)` of the repeated column from entry `r` of the vector of signs. -/
theorem row_of_entry (i : S8192x8192.Idx) : idx_main_v1 (idx_main_v2 i) = ix1 (i 0) :=
  funext fun a => Fin.ext (by match a with | ⟨0, _⟩ => rfl)

/-- The reference's last stage, as a function of the arguments it depends on, is `diag (sign v) · H`. -/
theorem result_eq (v : (⟨S8192, .f32⟩ : BufTy).Contents (Elt F)) (H : (⟨S8192x8192, .f32⟩ : BufTy).Contents (Elt F)) :
    val_main_v3 (F := F) v H = rowSigned v H := by
  funext i
  rw [val_main_v3_apply, val_main_v2_apply, val_main_v1_apply, val_main_v0_apply, row_of_entry]
  rfl

end Cert.ReferenceIdeal.RowValue

end
-- ==== Proof.KernelRowSign.lean ====
/-
  The kernel's result is `diag (sign v) · H`. Before its one region the program takes the signs of `v` and
  reshapes them into an 8192 × 1 column. The region walks 32 grid points; point `t` is handed rows
  `256·t … 256·t + 255` of `H` (a 256 × 8192 block) and of the column (a 256 × 1 block), repeats the column block
  along its rows, multiplies by the block of `H` entry by entry, and writes the 256 × 8192 product back as rows
  `256·t … 256·t + 255` of the result. So what point `t` writes back is block `t` of `diag (sign v) · H`, and the
  32 blocks tile the result: row `r` lies in the block of point `r / 256`.
-/
import proofs.«138551_j79551384256559_2_alg».proof.Proof.Gen.KernelIdeal.Value
import proofs.«138551_j79551384256559_2_alg».proof.Proof.RowSign
import Idealize.ShloMosaic.Lib.Pipeline.Value
import Idealize.ShloMosaic.Lib.ValueIdx
import Idealize.ShloMosaic.Lib.StableHlo.Run

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Cert.RowSign
open Idealize.ShloMosaic.Pipeline (Dat)

variable {F : FTy → Type} [FloatOps F]
variable (m : (ℓ : Loc nD τ sig) → Buf (Elt F) ℓ) (ρ : Dev nD → PrngReg)

/-! ## The column of signs the region finds -/

/-- When the region is entered the column holds the signs of `v`, reshaped. -/
theorem column_eq (c : Dev nD) :
    (V m c main_v1 : S8192x1.Idx → F .f32)
      = shapeCast S8192x1 (Host.sign (m ((c : Thread nD τ).loc main_arg1))) shapeCasts_S8192_S8192x1 := by
  dsimp only [Gen.V, Gen.hostOps0]; after_results; rfl

/-- Entry `(r, 0)` of the column is the sign of `v r`: a reshape keeps the row-major position, and the
    position of `(r, 0)` among 8192 × 1 entries is `r`. -/
theorem column_apply (c : Dev nD) (k : S8192x1.Idx) :
    V m c main_v1 k = FloatOps.hostUnary .sign (m ((c : Thread nD τ).loc main_arg1) (ix1 (n := 8192) (k 0))) := by
  rw [column_eq]
  refine (shapeCast_apply _ _ k (ix1 (n := 8192) (k 0)) ?_).trans rfl
  rw [Shape.rowMajor_val_one, Shape.rowMajor_val_two]
  have h1 : (k 1).val < 1 := (k 1).isLt
  show (k 0).val = (k 0).val * 1 + (k 1).val
  omega

/-! ## What one grid point computes -/

/-- The body reads and writes its blocks whole: from offset zero on both axes. -/
theorem zero_offsets : (![0, 0] : Fin 2 → Nat) = fun _ => 0 := funext fun a => by fin_cases a <;> rfl

/-- From a 256 × 8192 block `x0` of `H` and a 256 × 1 block `x1` of the column, the body leaves the product of
    `x1`, repeated along its rows, with `x0`: entry `(p, q)` is `x1 (p, 0) · x0 (p, q)`. -/
theorem block_product (x0 : Vec F S256x8192 .f32) (x1 : Vec F S256x1 .f32) (j : S256x8192.Idx) :
    out0_2 x0 x1 j = FloatOps.mulf (x1 (ix2 (n0 := 256) (j 0) (0 : Fin 1))) (x0 j) := by
  unfold out0_2
  rw [View.ld_unit_zero (S := S256x1) zero_offsets, View.ld_unit_zero (S := S256x8192) zero_offsets, Value.canon2_eq]
  show FloatOps.mulf (x1 (Value.ix2_0 j)) (x0 (Value.ix2_1 j)) = _
  have e0 : Value.ix2_0 j = ix2 (n0 := 256) (j 0) (0 : Fin 1) :=
    funext fun a => Fin.ext (by match a with | ⟨0, _⟩ => rfl | ⟨1, _⟩ => rfl)
  have e1 : Value.ix2_1 j = j :=
    funext fun a => Fin.ext (by match a with | ⟨0, _⟩ => rfl | ⟨1, _⟩ => rfl)
  rw [e0, e1]

/-! ## The blocks a grid point is handed -/

/-- The three windows move together: at point `t` each is at block row `t`, block column 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `(p, q)` of the block of `H` at point `t` is `H (256·t + p, q)`: entry `(p, q)` of the block of the
    result at that point, read in `H`. -/
theorem matrix_block (c : Dev nD) (t : Fin cfg0.N) (j : S256x8192.Idx) :
    iblk m c 0 t j = m ((c : Thread nD τ).loc main_arg2) (((cfg0.win 2).blk t).view.emb j) := by
  obtain ⟨e0, e1, -, -, e4, e5⟩ := block_indices t
  show V m c main_arg2 (((cfg0.win 0).blk t).view.emb j) = _
  rw [V_main_arg2]
  refine congrArg _ (funext fun a => Fin.ext ?_)
  match a with
  | ⟨0, _⟩ => show win0_0.index t (0 : Fin 2) * 256 + 1 * (j 0).val = win0_2.index t (0 : Fin 2) * 256 + 1 * (j 0).val; omega
  | ⟨1, _⟩ => show win0_0.index t (1 : Fin 2) * 8192 + 1 * (j 1).val = win0_2.index t (1 : Fin 2) * 8192 + 1 * (j 1).val; omega

/-- Entry `(p, 0)` of the block of the column at point `t` is the sign of `v (256·t + p)`: the sign of the entry
    of `v` at the row of the result that entry `(p, q)` of the block of the result at that point lies in. -/
theorem column_block (c : Dev nD) (t : Fin cfg0.N) (j : S256x8192.Idx) :
    iblk m c 1 t (ix2 (n0 := 256) (j 0) (0 : Fin 1))
      = FloatOps.hostUnary .sign (m ((c : Thread nD τ).loc main_arg1) (ix1 (n := 8192) ((((cfg0.win 2).blk t).view.emb j) 0))) := by
  obtain ⟨-, -, e2, -, e4, -⟩ := block_indices t
  show V m c main_v1 (((cfg0.win 1).blk t).view.emb (ix2 (n0 := 256) (j 0) (0 : Fin 1))) = _
  rw [column_apply]
  have e : (((((cfg0.win 1).blk t).view.emb (ix2 (n0 := 256) (j 0) (0 : Fin 1))) 0 : Fin 8192))
      = ((((cfg0.win 2).blk t).view.emb j) 0 : Fin 8192) :=
    Fin.ext (by show win0_1.index t (0 : Fin 2) * 256 + 1 * (j 0).val = win0_2.index t (0 : Fin 2) * 256 + 1 * (j 0).val; omega)
  exact congrArg (fun r : Fin 8192 => FloatOps.hostUnary .sign (m ((c : Thread nD τ).loc main_arg1) (ix1 (n := 8192) r))) e

/-! ## From the blocks to the array -/

/-- What point `t` writes back is block `t` of `diag (sign v) · H`. -/
theorem flushed_eq (c : Dev nD) (t : Fin cfg0.N) :
    (dats m 0 c).flushed 2 t = ((cfg0.win 2).blk t).view.read (Elt F)
      (rowSigned (m ((c : Thread nD τ).loc main_arg1)) (m ((c : Thread nD τ).loc main_arg2))) := by
  rw [Value.flushed2]
  funext j
  show out0_2 (iblk m c 0 t) (iblk m c 1 t) j
    = rowSigned (m ((c : Thread nD τ).loc main_arg1)) (m ((c : Thread nD τ).loc main_arg2)) (((cfg0.win 2).blk t).view.emb j)
  refine (block_product (iblk m c 0 t) (iblk m c 1 t) j).trans ?_
  rw [matrix_block m c t j, column_block m c t j]
  rfl

/-- An index of the result lies in the block of point `t` exactly when, on each axis, its coordinate is within
    the block's extent from the block's first coordinate. -/
theorem mem_block (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v2).slice (win0_2.rect t)).set ↔ _
  rw [View.set_slice_whole, Rect.mem_set_unit]
  exact Iff.rfl

/-- The 32 blocks tile the result: the entry at row `r` lies in the block of point `r / 256`, and every point
    writes its block back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ : ∃ t : Fin cfg0.N, t.val = (i 0).val / 256 :=
    ⟨⟨(i 0).val / 256, by show (i 0).val / 256 < 32; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 8192 ≤ (i 1).val ∧ (i 1).val < win0_2.index t (1 : Fin 2) * 8192 + 8192
    omega

/-- After the 32 points the result array holds `diag (sign v) · H`. -/
theorem final (c : Dev nD) :
    (dats m 0 c).arrAt 2 cfg0.N
      = rowSigned (m ((c : Thread nD τ).loc main_arg1)) (m ((c : Thread nD τ).loc main_arg2)) :=
  (dats m 0 c).arrAt_eq_of_cover 2 _ (fun t _ => flushed_eq m c t) covered

/-- Every weakly fair execution of the kernel's program terminates with the result array at
    `diag (sign v) · H` of the arguments as launched, and the arguments unchanged. -/
theorem run : θ_run defs (onTc (τ := τ) (main (F := F))) ⟨m, fun _ => 0, ρ⟩ fun r => ∀ c : Dev nD,
      r.2.mem ((c : Thread nD τ).loc main_v2)
        = rowSigned (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowValue

end
-- ==== Proof.lean ====
/-
  The kernel and its reference both compute `diag (sign v) · H` from a vector `v` of 8192 entries and an
  8192 × 8192 matrix `H`: entry `(r, q)` of the result is `sign (v r) · H (r, q)` (Proof/RowSign.lean). A third
  argument, another 8192 × 8192 matrix, is read by neither.

  The reference takes the signs of `v`, repeats them along every row and multiplies by `H` entry by entry
  (Proof/RefRowSign.lean). The kernel takes the signs of `v` too, reshapes them into a column, and hands its one
  region, 256 rows at a time, the rows of `H` and of the column; each of the 32 grid points repeats its piece of the
  column along the rows, multiplies by its rows of `H`, and writes the 256 rows of the product back, and the 32
  blocks of rows tile the result (Proof/KernelRowSign.lean). The two programs apply the same two scalar operations,
  `sign` then `·`, to the same two entries in the same order of the factors, so their results are equal on all
  extended reals — no law of arithmetic is used, and the finiteness of the inputs is never opened.

  The three programs' runs (termination, no fault, the arguments unchanged) are the generated frame runs of the two
  kernel programs and the generated run of the reference; the idealized kernel is the kernel's own text read over
  the extended reals, with nothing rewritten, so there is nothing to preserve.
-/
import proofs.«138551_j79551384256559_2_alg».proof.Defs
import proofs.«138551_j79551384256559_2_alg».proof.Proof.Gen.Kernel
import proofs.«138551_j79551384256559_2_alg».proof.Proof.Gen.Kernel.Skeleton
import proofs.«138551_j79551384256559_2_alg».proof.Proof.Gen.Kernel.Launch
import proofs.«138551_j79551384256559_2_alg».proof.Proof.Gen.Kernel.Points
import proofs.«138551_j79551384256559_2_alg».proof.Proof.Gen.Kernel.Frame
import proofs.«138551_j79551384256559_2_alg».proof.Proof.Gen.KernelIdeal
import proofs.«138551_j79551384256559_2_alg».proof.Proof.Gen.KernelIdeal.Skeleton
import proofs.«138551_j79551384256559_2_alg».proof.Proof.Gen.KernelIdeal.Launch
import proofs.«138551_j79551384256559_2_alg».proof.Proof.Gen.KernelIdeal.Points
import proofs.«138551_j79551384256559_2_alg».proof.Proof.Gen.KernelIdeal.Frame
import proofs.«138551_j79551384256559_2_alg».proof.Proof.Gen.ReferenceIdeal
import proofs.«138551_j79551384256559_2_alg».proof.Proof.Gen.Pre_finite_inputs
import proofs.«138551_j79551384256559_2_alg».proof.Proof.Gen.KernelIdeal.Value
import proofs.«138551_j79551384256559_2_alg».proof.Proof.Gen.ReferenceIdeal.Run
import proofs.«138551_j79551384256559_2_alg».proof.Proof.Gen.ReferenceIdeal.Read
import proofs.«138551_j79551384256559_2_alg».proof.Proof.RowSign
import proofs.«138551_j79551384256559_2_alg».proof.Proof.RefRowSign
import proofs.«138551_j79551384256559_2_alg».proof.Proof.KernelRowSign
import Idealize.ShloMosaic.Adequacy
import Idealize.ShloMosaic.Init

noncomputable section

namespace Cert.Proof

open Idealize.ShloMosaic Idealize.SL.Sem

/-- The kernel's program runs and leaves its arguments as they were. -/
theorem frame_kernel : Cert.frame_Kernel := fun m ρ _ => Cert.Kernel.Gen.frame m ρ

/-- So does the kernel's program read over the extended reals. -/
theorem frame_kernel_ideal : Cert.frame_KernelIdeal := fun m ρ _ => Cert.KernelIdeal.Gen.frame m ρ

/-- The reference has no kernel: it runs as the sequence of its four operations, which write none of the arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on the arguments both programs end with their result at `diag (sign v) · H` of the
    kernel's arguments. -/
theorem algebraic : Cert.algebraic_KernelIdeal_ReferenceIdeal := by
  intro m ρ m' ρ' _ hagree
  refine ⟨_, Cert.KernelIdeal.RowValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RowValue.result_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
